-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x7x45 : Shape := ⟨3, ![8, 7, 45]⟩
abbrev S8x4096x5120 : Shape := ⟨3, ![8, 4096, 5120]⟩
abbrev S45x5120 : Shape := ⟨2, ![45, 5120]⟩
abbrev S5120 : Shape := ⟨1, ![5120]⟩
abbrev S_ : Shape := ⟨0, ![]⟩

class Facts : Prop where
  bcast_S_S8x7x45 : S_.BroadcastsInDim S8x7x45 (![] : Fin 0 → Fin S8x7x45.rank)
  reducesTo_S8x7x45_S_d0_1_2 : S8x7x45.ReducesTo [0, 1, 2] S_
  h_S_ : 0 < S_.numel
  bcast_S_S8x4096x5120 : S_.BroadcastsInDim S8x4096x5120 (![] : Fin 0 → Fin S8x4096x5120.rank)
  reducesTo_S8x4096x5120_S_d0_1_2 : S8x4096x5120.ReducesTo [0, 1, 2] S_
  bcast_S_S45x5120 : S_.BroadcastsInDim S45x5120 (![] : Fin 0 → Fin S45x5120.rank)
  reducesTo_S45x5120_S_d0_1 : S45x5120.ReducesTo [0, 1] S_
  bcast_S_S5120 : S_.BroadcastsInDim S5120 (![] : Fin 0 → Fin S5120.rank)
  reducesTo_S5120_S_d0 : S5120.ReducesTo [0] S_

variable [Facts]

def fn_part1 {F : FTy → Type} [FloatOps F] (main_v13 : IVec S_ 1) (main_v16 : IVec S5120 1) : IVec S_ 1 :=
  let main_c_5 : IVec S_ 1 := constantI S_ 1 1#1
  let main_v17 : IVec S_ 1 := (fun x v => Host.reduce IntOp.andi x v reducesTo_S5120_S_d0 h_S_) main_v16 main_c_5
  let main_v18 : IVec S_ 1 := andi main_v13 main_v17
  main_v18

def fn {F : FTy → Type} [FloatOps F] (main_arg0 : FVec F S8x7x45 .f32) (main_arg1 : FVec F S8x4096x5120 .f32) (main_arg2 : FVec F S45x5120 .f32) (main_arg3 : FVec F S5120 .f32) : IVec S_ 1 :=
  let main_v0 : FVec F S8x7x45 .f32 := Host.absf main_arg0
  let main_cst : FVec F S_ .f32 := constant S_ .f32 0x7F800000#32
  let main_v1 : FVec F S8x7x45 .f32 := broadcastInDim S8x7x45 ![] bcast_S_S8x7x45 main_cst
  let main_v2 : IVec S8x7x45 1 := cmpf .olt main_v0 main_v1
  let main_c : IVec S_ 1 := constantI S_ 1 1#1
  let main_v3 : IVec S_ 1 := (fun x v => Host.reduce IntOp.andi x v reducesTo_S8x7x45_S_d0_1_2 h_S_) main_v2 main_c
  let main_v4 : FVec F S8x4096x5120 .f32 := Host.absf main_arg1
  let main_cst_0 : FVec F S_ .f32 := constant S_ .f32 0x7F800000#32
  let main_v5 : FVec F S8x4096x5120 .f32 := broadcastInDim S8x4096x5120 ![] bcast_S_S8x4096x5120 main_cst_0
  let main_v6 : IVec S8x4096x5120 1 := cmpf .olt main_v4 main_v5
  let main_c_1 : IVec S_ 1 := constantI S_ 1 1#1
  let main_v7 : IVec S_ 1 := (fun x v => Host.reduce IntOp.andi x v reducesTo_S8x4096x5120_S_d0_1_2 h_S_) main_v6 main_c_1
  let main_v8 : IVec S_ 1 := andi main_v3 main_v7
  let main_v9 : FVec F S45x5120 .f32 := Host.absf main_arg2
  let main_cst_2 : FVec F S_ .f32 := constant S_ .f32 0x7F800000#32
  let main_v10 : FVec F S45x5120 .f32 := broadcastInDim S45x5120 ![] bcast_S_S45x5120 main_cst_2
  let main_v11 : IVec S45x5120 1 := cmpf .olt main_v9 main_v10
  let main_c_3 : IVec S_ 1 := constantI S_ 1 1#1
  let main_v12 : IVec S_ 1 := (fun x v => Host.reduce IntOp.andi x v reducesTo_S45x5120_S_d0_1 h_S_) main_v11 main_c_3
  let main_v13 : IVec S_ 1 := andi main_v8 main_v12
  let main_v14 : FVec F S5120 .f32 := Host.absf main_arg3
  let main_cst_4 : FVec F S_ .f32 := constant S_ .f32 0x7F800000#32
  let main_v15 : FVec F S5120 .f32 := broadcastInDim S5120 ![] bcast_S_S5120 main_cst_4
  let main_v16 : IVec S5120 1 := cmpf .olt main_v14 main_v15
  fn_part1 (F := F) main_v13 main_v16
-- ==== Kernel.lean ====
abbrev S8x7x45 : Shape := ⟨3, ![8, 7, 45]⟩
abbrev S8x4096x5120 : Shape := ⟨3, ![8, 4096, 5120]⟩
abbrev S45x5120 : Shape := ⟨2, ![45, 5120]⟩
abbrev S5120 : Shape := ⟨1, ![5120]⟩
abbrev S_ : Shape := ⟨0, ![]⟩
abbrev S8x7 : Shape := ⟨2, ![8, 7]⟩
abbrev S8x7x1 : Shape := ⟨3, ![8, 7, 1]⟩
abbrev S8x1x5120 : Shape := ⟨3, ![8, 1, 5120]⟩
abbrev S1x1024x5120 : Shape := ⟨3, ![1, 1024, 5120]⟩
abbrev S1x1x5120 : Shape := ⟨3, ![1, 1, 5120]⟩
abbrev S1x5120 : Shape := ⟨2, ![1, 5120]⟩
abbrev S8x5120 : Shape := ⟨2, ![8, 5120]⟩
abbrev S8x45 : Shape := ⟨2, ![8, 45]⟩
abbrev S8 : Shape := ⟨1, ![8]⟩
abbrev S8x1 : Shape := ⟨2, ![8, 1]⟩

abbrev nBuf : Space → Nat
  | .hbm => 40
  | .vmem => 4
  | .smem => 0
  | _ => 0

abbrev bufTy : (tb : Table) → Fin (tcTables nBuf tb) → BufTy
  | .hbm, ⟨0, _⟩ => ⟨S8x7x45, .f32⟩
  | .hbm, ⟨1, _⟩ => ⟨S8x4096x5120, .f32⟩
  | .hbm, ⟨2, _⟩ => ⟨S45x5120, .f32⟩
  | .hbm, ⟨3, _⟩ => ⟨S5120, .f32⟩
  | .hbm, ⟨4, _⟩ => ⟨S_, .f32⟩
  | .hbm, ⟨5, _⟩ => ⟨S8x7, .f32⟩
  | .hbm, ⟨6, _⟩ => ⟨S8x7x1, .f32⟩
  | .hbm, ⟨7, _⟩ => ⟨S_, .f32⟩
  | .hbm, ⟨8, _⟩ => ⟨S8x7, .f32⟩
  | .hbm, ⟨9, _⟩ => ⟨S8x7x1, .f32⟩
  | .hbm, ⟨10, _⟩ => ⟨S8x7x1, .i1⟩
  | .hbm, ⟨11, _⟩ => ⟨S8x7x45, .f32⟩
  | .hbm, ⟨12, _⟩ => ⟨S8x7x45, .f32⟩
  | .hbm, ⟨13, _⟩ => ⟨S8x7x1, .f32⟩
  | .hbm, ⟨14, _⟩ => ⟨S8x7x45, .f32⟩
  | .hbm, ⟨15, _⟩ => ⟨S8x7x45, .f32⟩
  | .hbm, ⟨16, _⟩ => ⟨S8x7x45, .i1⟩
  | .hbm, ⟨17, _⟩ => ⟨S8x7x45, .f32⟩
  | .hbm, ⟨18, _⟩ => ⟨S8x1x5120, .f32⟩
  | .hbm, ⟨19, _⟩ => ⟨S8x5120, .f32⟩
  | .hbm, ⟨20, _⟩ => ⟨S_, .f32⟩
  | .hbm, ⟨21, _⟩ => ⟨S8x45, .f32⟩
  | .hbm, ⟨22, _⟩ => ⟨S_, .f32⟩
  | .hbm, ⟨23, _⟩ => ⟨S8x45, .f32⟩
  | .hbm, ⟨24, _⟩ => ⟨S8x45, .f32⟩
  | .hbm, ⟨25, _⟩ => ⟨S8x5120, .f32⟩
  | .hbm, ⟨26, _⟩ => ⟨S1x5120, .f32⟩
  | .hbm, ⟨27, _⟩ => ⟨S8x5120, .f32⟩
  | .hbm, ⟨28, _⟩ => ⟨S8x5120, .f32⟩
  | .hbm, ⟨29, _⟩ => ⟨S8x5120, .f32⟩
  | .hbm, ⟨30, _⟩ => ⟨S_, .f32⟩
  | .hbm, ⟨31, _⟩ => ⟨S8, .f32⟩
  | .hbm, ⟨32, _⟩ => ⟨S8x1, .f32⟩
  | .hbm, ⟨33, _⟩ => ⟨S8x1, .f32⟩
  | .hbm, ⟨34, _⟩ => ⟨S_, .f32⟩
  | .hbm, ⟨35, _⟩ => ⟨S8x1, .f32⟩
  | .hbm, ⟨36, _⟩ => ⟨S8x1, .f32⟩
  | .hbm, ⟨37, _⟩ => ⟨S8x5120, .f32⟩
  | .hbm, ⟨38, _⟩ => ⟨S8x5120, .f32⟩
  | .hbm, ⟨39, _⟩ => ⟨S8x5120, .f32⟩
  | .local _ .vmem, ⟨0, _⟩ => ⟨S1x1024x5120, .f32⟩
  | .local _ .vmem, ⟨1, _⟩ => ⟨S1x1024x5120, .f32⟩
  | .local _ .vmem, ⟨2, _⟩ => ⟨S1x1x5120, .f32⟩
  | .local _ .vmem, ⟨3, _⟩ => ⟨S1x1x5120, .f32⟩
  | _, _ => ⟨S8x7x45, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_call1_v2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  reducesTo_S8x7x45_S8x7_d2 : S8x7x45.ReducesTo [2] S8x7
  h_S_ : 0 < S_.numel
  bcast_S8x7_S8x7x1_0_1 : S8x7.BroadcastsInDim S8x7x1 (![0, 1] : Fin 2 → Fin S8x7x1.rank)
  bcast_S8x7x1_S8x7x45_0_1_2 : S8x7x1.BroadcastsInDim S8x7x45 (![0, 1, 2] : Fin 3 → Fin S8x7x45.rank)
  inb_S1x1x5120_S1x1x5120_0_0_0 : ∀ a, (![0, 0, 0] : Fin 3 → Nat) a + S1x1x5120.size a ≤ S1x1x5120.size a
  h_S1x1x5120 : 0 < S1x1x5120.numel
  shapeCasts_S1x1x5120_S1x1x5120 : S1x1x5120.ShapeCasts S1x1x5120
  inb_S1x1024x5120_S1x1024x5120_0_0_0 : ∀ a, (![0, 0, 0] : Fin 3 → Nat) a + S1x1024x5120.size a ≤ S1x1024x5120.size a
  h_S1x1024x5120 : 0 < S1x1024x5120.numel
  reduces_S1x1024x5120_S1x5120 : S1x1024x5120.Reduces [1] S1x5120
  shapeCasts_S1x5120_S1x1x5120 : S1x5120.ShapeCasts S1x1x5120
  shapeCasts_S8x1x5120_S8x5120 : S8x1x5120.ShapeCasts S8x5120
  reducesTo_S8x7x45_S8x45_d1 : S8x7x45.ReducesTo [1] S8x45
  bcast_S_S8x45 : S_.BroadcastsInDim S8x45 (![] : Fin 0 → Fin S8x45.rank)
  bcast_S5120_S1x5120_1 : S5120.BroadcastsInDim S1x5120 (![1] : Fin 1 → Fin S1x5120.rank)
  bcast_S1x5120_S8x5120_0_1 : S1x5120.BroadcastsInDim S8x5120 (![0, 1] : Fin 2 → Fin S8x5120.rank)
  reducesTo_S8x5120_S8_d1 : S8x5120.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x5120_0_1 : S8x1.BroadcastsInDim S8x5120 (![0, 1] : Fin 2 → Fin S8x5120.rank)
  dot_S8x45_S45x5120_S8x5120_1_0_0_1_n_n_wf : DotDims.WF S8x45 S45x5120 S8x5120 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x5120.size a ≤ S8x4096x5120.size a
  hwx0_0 : ∀ i : grid0.Coords, EltTy.bits .f32 = 32 ∨ (Rect.block (s := S8x4096x5120) S1x1024x5120.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x5120.size a ≤ S8x1x5120.size a
  hwx0_1 : ∀ i : grid0.Coords, EltTy.bits .f32 = 32 ∨ (Rect.block (s := S8x1x5120) S1x1x5120.size (cc0_transform_1 i) (hinb0_1 i)).WholeWords (EltTy.packing .f32)

variable [Facts₀]

def dot_S8x45_S45x5120_S8x5120_1_0_0_1_n_n : DotDims S8x45 S45x5120 S8x5120 where
  lhsContracting := [1]
  rhsContracting := [0]
  lhsNonContracting := [0]
  rhsNonContracting := [1]
  lhsBatch := []
  rhsBatch := []
  wf := dot_S8x45_S45x5120_S8x5120_1_0_0_1_n_n_wf

abbrev win0_0 : Pipeline.Window sig grid0 :=
  Pipeline.Window.ofSpec (Memref.whole main_arg1) S1x1024x5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x1x5120.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x7x45 : Shape := ⟨3, ![8, 7, 45]⟩
abbrev S8x4096x5120 : Shape := ⟨3, ![8, 4096, 5120]⟩
abbrev S45x5120 : Shape := ⟨2, ![45, 5120]⟩
abbrev S5120 : Shape := ⟨1, ![5120]⟩
abbrev S_ : Shape := ⟨0, ![]⟩
abbrev S8x7 : Shape := ⟨2, ![8, 7]⟩
abbrev S8x7x1 : Shape := ⟨3, ![8, 7, 1]⟩
abbrev S8x5120 : Shape := ⟨2, ![8, 5120]⟩
abbrev S8x45 : Shape := ⟨2, ![8, 45]⟩
abbrev S1x5120 : Shape := ⟨2, ![1, 5120]⟩
abbrev S8 : Shape := ⟨1, ![8]⟩
abbrev S8x1 : Shape := ⟨2, ![8, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x7x45, .f32⟩
  | .hbm, ⟨1, _⟩ => ⟨S8x4096x5120, .f32⟩
  | .hbm, ⟨2, _⟩ => ⟨S45x5120, .f32⟩
  | .hbm, ⟨3, _⟩ => ⟨S5120, .f32⟩
  | .hbm, ⟨4, _⟩ => ⟨S_, .f32⟩
  | .hbm, ⟨5, _⟩ => ⟨S8x7, .f32⟩
  | .hbm, ⟨6, _⟩ => ⟨S8x7x1, .f32⟩
  | .hbm, ⟨7, _⟩ => ⟨S_, .f32⟩
  | .hbm, ⟨8, _⟩ => ⟨S8x7, .f32⟩
  | .hbm, ⟨9, _⟩ => ⟨S8x7x1, .f32⟩
  | .hbm, ⟨10, _⟩ => ⟨S8x7x1, .i1⟩
  | .hbm, ⟨11, _⟩ => ⟨S8x7x45, .f32⟩
  | .hbm, ⟨12, _⟩ => ⟨S8x7x45, .f32⟩
  | .hbm, ⟨13, _⟩ => ⟨S8x7x1, .f32⟩
  | .hbm, ⟨14, _⟩ => ⟨S8x7x45, .f32⟩
  | .hbm, ⟨15, _⟩ => ⟨S8x7x45, .f32⟩
  | .hbm, ⟨16, _⟩ => ⟨S8x7x45, .i1⟩
  | .hbm, ⟨17, _⟩ => ⟨S8x7x45, .f32⟩
  | .hbm, ⟨18, _⟩ => ⟨S_, .f32⟩
  | .hbm, ⟨19, _⟩ => ⟨S8x5120, .f32⟩
  | .hbm, ⟨20, _⟩ => ⟨S_, .f32⟩
  | .hbm, ⟨21, _⟩ => ⟨S8x5120, .f32⟩
  | .hbm, ⟨22, _⟩ => ⟨S8x5120, .f32⟩
  | .hbm, ⟨23, _⟩ => ⟨S_, .f32⟩
  | .hbm, ⟨24, _⟩ => ⟨S8x45, .f32⟩
  | .hbm, ⟨25, _⟩ => ⟨S_, .f32⟩
  | .hbm, ⟨26, _⟩ => ⟨S8x45, .f32⟩
  | .hbm, ⟨27, _⟩ => ⟨S8x45, .f32⟩
  | .hbm, ⟨28, _⟩ => ⟨S8x5120, .f32⟩
  | .hbm, ⟨29, _⟩ => ⟨S1x5120, .f32⟩
  | .hbm, ⟨30, _⟩ => ⟨S8x5120, .f32⟩
  | .hbm, ⟨31, _⟩ => ⟨S8x5120, .f32⟩
  | .hbm, ⟨32, _⟩ => ⟨S8x5120, .f32⟩
  | .hbm, ⟨33, _⟩ => ⟨S_, .f32⟩
  | .hbm, ⟨34, _⟩ => ⟨S8, .f32⟩
  | .hbm, ⟨35, _⟩ => ⟨S8x1, .f32⟩
  | .hbm, ⟨36, _⟩ => ⟨S8x1, .f32⟩
  | .hbm, ⟨37, _⟩ => ⟨S_, .f32⟩
  | .hbm, ⟨38, _⟩ => ⟨S8x1, .f32⟩
  | .hbm, ⟨39, _⟩ => ⟨S8x1, .f32⟩
  | .hbm, ⟨40, _⟩ => ⟨S8x5120, .f32⟩
  | .hbm, ⟨41, _⟩ => ⟨S8x5120, .f32⟩
  | .hbm, ⟨42, _⟩ => ⟨S8x5120, .f32⟩
  | _, _ => ⟨S8x7x45, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_v0 : Ref sig .tc := ⟨.hbm, 32, rfl⟩
abbrev main_call1_cst : Ref sig .tc := ⟨.hbm, 33, rfl⟩
abbrev main_call1_v1 : Ref sig .tc := ⟨.hbm, 34, rfl⟩
abbrev main_call1_v2 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]

class Facts₀ : Prop where
  reducesTo_S8x7x45_S8x7_d2 : S8x7x45.ReducesTo [2] S8x7
  h_S_ : 0 < S_.numel
  bcast_S8x7_S8x7x1_0_1 : S8x7.BroadcastsInDim S8x7x1 (![0, 1] : Fin 2 → Fin S8x7x1.rank)
  bcast_S8x7x1_S8x7x45_0_1_2 : S8x7x1.BroadcastsInDim S8x7x45 (![0, 1, 2] : Fin 3 → Fin S8x7x45.rank)
  reducesTo_S8x4096x5120_S8x5120_d1 : S8x4096x5120.ReducesTo [1] S8x5120
  bcast_S_S8x5120 : S_.BroadcastsInDim S8x5120 (![] : Fin 0 → Fin S8x5120.rank)
  reducesTo_S8x7x45_S8x45_d1 : S8x7x45.ReducesTo [1] S8x45
  bcast_S_S8x45 : S_.BroadcastsInDim S8x45 (![] : Fin 0 → Fin S8x45.rank)
  bcast_S5120_S1x5120_1 : S5120.BroadcastsInDim S1x5120 (![1] : Fin 1 → Fin S1x5120.rank)
  bcast_S1x5120_S8x5120_0_1 : S1x5120.BroadcastsInDim S8x5120 (![0, 1] : Fin 2 → Fin S8x5120.rank)
  reducesTo_S8x5120_S8_d1 : S8x5120.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x5120_0_1 : S8x1.BroadcastsInDim S8x5120 (![0, 1] : Fin 2 → Fin S8x5120.rank)
  dot_S8x45_S45x5120_S8x5120_1_0_0_1_n_n_wf : DotDims.WF S8x45 S45x5120 S8x5120 [1] [0] [0] [1] [] []

variable [Facts₀]

def dot_S8x45_S45x5120_S8x5120_1_0_0_1_n_n : DotDims S8x45 S45x5120 S8x5120 where
  lhsContracting := [1]
  rhsContracting := [0]
  lhsNonContracting := [0]
  rhsNonContracting := [1]
  lhsBatch := []
  rhsBatch := []
  wf := dot_S8x45_S45x5120_S8x5120_1_0_0_1_n_n_wf

class Facts : Prop extends Facts₀ where

variable [Facts]
-- ==== Proof.Pieces.lean ====
/-
  What the kernel body leaves in the output block's buffer, case by case, as values.

  The body always adds the lane-wise column sums of the input block to what the output buffer holds; at the
  first sequence tile it first overwrites the buffer with zeros, and at the last it finally rescales the buffer.
  So a first tile leaves `sums(0, x)`, a middle tile `sums(acc, x)`, and a last tile `scale(sums(acc, x))`, where
  `sums` and `scale` are the body's own two payloads and `acc` is what the tile before left.
-/
import proofs.«123669_j8169027797036_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0, 0] : Fin 3 → Nat) = fun _ => 0 := funext fun a => by fin_cases a <;> rfl

/-- A MIDDLE tile (neither first nor last): one store covers the buffer, the running total plus the block's column sums. -/
theorem out_B (c : Dev nD) (i : grid0.Coords) (a2 : Memref sig .tc .vmem S1x1024x5120 .f32) (h2 : a2.IsWhole)
    (a3 : Memref sig .tc .vmem S1x1x5120 .f32) (h3 : a3.IsWhole) (hc0 : ¬cond0_0 i) (hc1 : ¬cond0_1 i)
    (x : Vec F S1x1024x5120 .f32) (xo : Vec F S1x1x5120 .f32) :
    out0_B_1 c i a2 h2 a3 h3 hc0 hc1 x xo = k0_pay2 xo x := by
  unfold out0_B_1
  rw [View.read_writes_eq_canon _ _ _ (cover0_B_1 c i a2 h2 a3 h3 hc0 hc1 x xo)]
  unfold kernelRun0_B
  dsimp only
  rw [View.canon_unit_zero hz]
  simp only [View.readAt_eq_ld, h2.read_unread, h3.read_unread, View.ld_unit_zero (S := S1x1024x5120) hz,
    View.ld_unit_zero (S := S1x1x5120) hz]

/-- A FIRST tile: the zeros are stored, read back, and the block's column sums added to them. -/
theorem out_A (c : Dev nD) (i : grid0.Coords) (a2 : Memref sig .tc .vmem S1x1024x5120 .f32) (h2 : a2.IsWhole)
    (a3 : Memref sig .tc .vmem S1x1x5120 .f32) (h3 : a3.IsWhole) (hc0 : cond0_0 i) (hc1 : ¬cond0_1 i)
    (x : Vec F S1x1024x5120 .f32) :
    out0_A_1 c i a2 h2 a3 h3 hc0 hc1 x = k0_pay2 (k0_pay1 (F := F)) x := by
  unfold out0_A_1
  rw [View.read_writes_eq_canon _ _ _ (cover0_A_1 c i a2 h2 a3 h3 hc0 hc1 x)]
  unfold kernelRun0_A
  dsimp only
  sl_unfold_words
  rw [View.canon_cons_unit_zero (S := S1x1x5120) hz, View.readCov_unit_zero (S := S1x1x5120) _ hz]
  simp only [View.readAt_eq_ld, h2.read_unread, View.ld_unit_zero (S := S1x1024x5120) hz,
    View.ld_unit_zero (S := S1x1x5120) hz]

/-- A LAST tile: the total is stored, read back, and rescaled. -/
theorem out_C (c : Dev nD) (i : grid0.Coords) (a2 : Memref sig .tc .vmem S1x1024x5120 .f32) (h2 : a2.IsWhole)
    (a3 : Memref sig .tc .vmem S1x1x5120 .f32) (h3 : a3.IsWhole) (hc0 : ¬cond0_0 i) (hc1 : cond0_1 i)
    (x : Vec F S1x1024x5120 .f32) (xo : Vec F S1x1x5120 .f32) :
    out0_C_1 c i a2 h2 a3 h3 hc0 hc1 x xo = k0_pay3 (k0_pay2 xo x) := by
  unfold out0_C_1
  rw [View.read_writes_eq_canon _ _ _ (cover0_C_1 c i a2 h2 a3 h3 hc0 hc1 x xo)]
  unfold kernelRun0_C
  dsimp only
  sl_unfold_words
  rw [View.canon_cons_unit_zero (S := S1x1x5120) hz, View.readCov_unit_zero (S := S1x1x5120) _ hz]
  simp only [View.readAt_eq_ld, h2.read_unread, h3.read_unread, View.ld_unit_zero (S := S1x1024x5120) hz,
    View.ld_unit_zero (S := S1x1x5120) hz]

end Cert.KernelIdeal.Pieces

end
-- ==== Proof.Spec.lean ====
/-
  The arithmetic behind the mean over the sequence axis, free of any program.

  A column of 4096 extended reals is summed by the kernel in four stretches of 1024 consecutive rows,
  each stretch added to a running total that starts at zero, and the total is multiplied by 2⁻¹²; the
  reference sums the whole column onto zero and divides by 4096. Addition of extended reals is
  commutative and associative (also at the infinities), so the four stretch sums added in order are the
  sum of the column; and division by the nonzero real 4096 is multiplication by its reciprocal on every
  extended real. Neither step needs the summands to be finite.
-/
import Idealize.ShloMosaic.PureOps.Ideal.Laws

noncomputable section

namespace Cert.MeanPool

open Idealize.ShloMosaic

/-- Row `1024 k + r` of the 4096: row `r` of stretch `k`. -/
abbrev row (k : Fin 4) (r : Fin 1024) : Fin 4096 := ⟨1024 * k.val + r.val, by omega⟩

/-- A sum over the 4096 rows is the sum over the four stretches of the sums over each stretch's 1024 rows:
    `(k, r) ↦ 1024 k + r` is a bijection from pairs to rows. -/
theorem sum_rows {M : Type} [AddCommMonoid M] (f : Fin 4096 → M) :
    ∑ s : Fin 4096, f s = ∑ k : Fin 4, ∑ r : Fin 1024, f (row k r) := by
  rw [← Fintype.sum_prod_type']
  refine (Fintype.sum_equiv (finProdFinEquiv : Fin 4 × Fin 1024 ≃ Fin 4096) _ _ (fun x => ?_)).symm
  refine congrArg f (Fin.ext ?_)
  show 1024 * x.1.val + x.2.val = x.2.val + 1024 * x.1.val
  omega

/-- The pattern of `+0.0` denotes `0`. -/
theorem ofBits_zero : Ideal.ofBits .f32 0x00000000#32 = 0 := Ideal.ofBits_zero_f32

/-- The pattern of `4096.0` (exponent 12, significand 1) denotes the real `4096`. -/
theorem ofBits_4096 : Ideal.ofBits .f32 0x45800000#32 = ((4096 : ℝ) : EReal) := by
  simp [Ideal.ofBits, Ideal.ieee, -EReal.coe_mul]; norm_num

/-- The pattern of `2.44140625e-4` (exponent -12, significand 1) denotes the real `1 / 4096`: the reciprocal is a
    power of two, so the kernel's folded scale is exact. -/
theorem ofBits_inv4096 : Ideal.ofBits .f32 0x39800000#32 = ((1 / 4096 : ℝ) : EReal) := by
  simp [Ideal.ofBits, Ideal.ieee, -EReal.coe_mul]; norm_num

/-- THE LAW. The four stretch sums added in order onto zero, times `2⁻¹²`, is the column's sum onto zero divided by
    `4096`. -/
theorem mean_eq (f : Fin 4096 → EReal) :
    ((((Ideal.ofBits .f32 0x00000000#32 + ∑ r : Fin 1024, f (row 0 r)) + ∑ r : Fin 1024, f (row 1 r))
        + ∑ r : Fin 1024, f (row 2 r)) + ∑ r : Fin 1024, f (row 3 r)) * Ideal.ofBits .f32 0x39800000#32
      = Ideal.div (Ideal.ofBits .f32 0x00000000#32 + ∑ s : Fin 4096, f s) (Ideal.ofBits .f32 0x45800000#32) := by
  rw [sum_rows f, Fin.sum_univ_four, ofBits_4096, ofBits_inv4096,
    Ideal.div_coe (by norm_num : (4096 : ℝ) ≠ 0)]
  simp only [add_assoc]

end Cert.MeanPool

end
-- ==== Proof.Values.lean ====
/-
  The kernel's running total, read as extended reals.

  Grid point `t` (of 32, batch-major) works on batch `t / 4` and on sequence tile `t % 4`: its input block is rows
  `1024 (t % 4) … 1024 (t % 4) + 1023` of that batch. At every lane `d` the output buffer holds, after the point, zero
  plus the sums over the rows of the tiles seen so far in this batch, tile after tile; after the batch's fourth tile
  that total is multiplied by `2⁻¹²`.
-/
import proofs.«123669_j8169027797036_2_alg».proof.Proof.Pieces
import proofs.«123669_j8169027797036_2_alg».proof.Proof.Spec
import Idealize.ShloMosaic.Lib.ValueIdx
import Idealize.ShloMosaic.Lib.ValueLayout
import Idealize.ShloMosaic.PureOps.Ideal.Laws

noncomputable section

namespace Cert.KernelIdeal.Values

open Idealize.ShloMosaic Idealize.ShloMosaic.TcCoe Idealize.SL.Sem Idealize.ShloMosaic.ValueIdx
open Cert.KernelIdeal Cert.KernelIdeal.Gen Cert.MeanPool

/-! ## The body's three payloads at a lane -/

/-- The reset stores zero at every lane. -/
theorem zeros_apply (j : S1x1x5120.Idx) : k0_pay1 (F := Ideal) j = Ideal.ofBits .f32 0x00000000#32 := rfl

/-- The lane-wise reduction of a `[1, 1024, 5120]` block over its rows, at lane `d`: the sum of the 1024 rows there. -/
theorem colsum_apply (x : FVec Ideal S1x1024x5120 .f32) (v : Fin 1) (d : Fin 5120) :
    multiReduction .add [1] S1x5120 x 0x00000000#32 reduces_S1x1024x5120_S1x5120 (.inl rfl) rfl (ix2 v d)
      = ∑ k : Fin 1024, x (ix3 v k d) := by
  refine (Ideal.multiReduction_add_single x 0x00000000#32 reduces_S1x1024x5120_S1x5120 (.inl rfl) rfl (ix2 v d)).trans ?_
  refine Finset.sum_congr rfl fun k _ => ?_
  exact congrArg x (funext fun a => Fin.ext (by match a with | ⟨0, _⟩ => rfl | ⟨1, _⟩ => rfl | ⟨2, _⟩ => rfl))

/-- The accumulation step at a lane: what the buffer held plus the block's row sum there. -/
theorem sums_apply (acc : Vec Ideal S1x1x5120 .f32) (x : Vec Ideal S1x1024x5120 .f32) (u v : Fin 1) (d : Fin 5120) :
    k0_pay2 acc x (ix3 u v d) = acc (ix3 u v d) + ∑ k : Fin 1024, x (ix3 v k d) := by
  unfold k0_pay2
  refine (addf_apply _ _ _).trans ?_
  refine congrArg₂ (· + ·) ?_ ?_
  · exact congrFun (shapeCast_self acc _) _
  · refine (shapeCast_ab_1ab_apply _ _ u v d).trans ?_
    exact colsum_apply x v d

/-- The final rescaling at a lane: the total times the pattern of `2⁻¹²`. -/
theorem scale_apply (acc : Vec Ideal S1x1x5120 .f32) (j : S1x1x5120.Idx) :
    k0_pay3 acc j = acc j * Ideal.ofBits .f32 0x39800000#32 := by
  unfold k0_pay3
  refine (mulf_apply _ _ _).trans ?_
  exact congrArg (· * _) (congrFun (shapeCast_self acc _) _)

end Cert.KernelIdeal.Values

end
-- ==== Proof.Acc.lean ====
/-
  The accumulation across the grid, at the ideal values.

  Point `n` of the grid (batch-major, four sequence tiles per batch) reads rows `1024 (n % 4) + k`, `k < 1024`, of batch
  `n / 4` of the input array. The output buffer after point `n` holds at lane `d` the running total `total x d n`:
  zero plus this batch's tile sums up to tile `n % 4`, rescaled by `2⁻¹²` once the fourth tile is in. The recursion
  follows the body's three cases (first tile, middle tile, last tile) and is proved by induction on the point.
-/
import proofs.«123669_j8169027797036_2_alg».proof.Proof.Values

noncomputable section

namespace Cert.KernelIdeal.Acc

open Idealize.ShloMosaic Idealize.ShloMosaic.TcCoe Idealize.SL.Sem Idealize.ShloMosaic.ValueIdx
open Cert.KernelIdeal Cert.KernelIdeal.Gen Cert.MeanPool Cert.KernelIdeal.Values

/-! ## The running total as a function of the input array -/

/-- The batch point `n` works on, -/
abbrev batchOf (n : ℕ) : Fin 8 := ⟨n / 4 % 8, Nat.mod_lt _ (by decide)⟩
/-- and its sequence tile. -/
abbrev tileOf (n : ℕ) : Fin 4 := ⟨n % 4, Nat.mod_lt _ (by decide)⟩

/-- The sum over the 1024 rows of point `n`'s tile, at lane `d`. -/
def tileSum (x : S8x4096x5120.Idx → EReal) (d : Fin 5120) (n : ℕ) : EReal :=
  ∑ k : Fin 1024, x (ix3 (batchOf n) (row (tileOf n) k) d)

/-- What the output buffer holds at lane `d` after point `n`: a first tile restarts from zero, a later tile adds its
    sum to the total before it, and the last tile of a batch rescales the result. -/
def total (x : S8x4096x5120.Idx → EReal) (d : Fin 5120) : ℕ → EReal
  | 0 => Ideal.ofBits .f32 0x00000000#32 + tileSum x d 0
  | n + 1 =>
    if (n + 1) % 4 = 0 then Ideal.ofBits .f32 0x00000000#32 + tileSum x d (n + 1)
    else if (n + 1) % 4 = 3 then (total x d n + tileSum x d (n + 1)) * Ideal.ofBits .f32 0x39800000#32
    else total x d n + tileSum x d (n + 1)

theorem total_first (x : S8x4096x5120.Idx → EReal) (d : Fin 5120) (n : ℕ) (h0 : n % 4 = 0) :
    total x d n = Ideal.ofBits .f32 0x00000000#32 + tileSum x d n := by
  cases n with
  | zero => rfl
  | succ n => exact if_pos h0

theorem total_mid (x : S8x4096x5120.Idx → EReal) (d : Fin 5120) (n : ℕ) (h0 : ¬(n + 1) % 4 = 0) (h1 : ¬(n + 1) % 4 = 3) :
    total x d (n + 1) = total x d n + tileSum x d (n + 1) := (if_neg h0).trans (if_neg h1)

theorem total_last (x : S8x4096x5120.Idx → EReal) (d : Fin 5120) (n : ℕ) (h0 : ¬(n + 1) % 4 = 0) (h1 : (n + 1) % 4 = 3) :
    total x d (n + 1) = (total x d n + tileSum x d (n + 1)) * Ideal.ofBits .f32 0x39800000#32 :=
  (if_neg h0).trans (if_pos h1)

/-- Tile `k` of batch `b` is point `4 b + k`'s. -/
theorem tileSum_eq (x : S8x4096x5120.Idx → EReal) (d : Fin 5120) (b : Fin 8) (k : Fin 4) :
    tileSum x d (4 * b.val + k.val) = ∑ r : Fin 1024, x (ix3 b (row k r) d) := by
  unfold tileSum
  have hb : batchOf (4 * b.val + k.val) = b := Fin.ext (by show (4 * b.val + k.val) / 4 % 8 = b.val; omega)
  have hk : tileOf (4 * b.val + k.val) = k := Fin.ext (by show (4 * b.val + k.val) % 4 = k.val; omega)
  rw [hb, hk]

/-- After the last point of batch `b` the total is the batch's four tile sums added in order onto zero, rescaled. -/
theorem total_batch (x : S8x4096x5120.Idx → EReal) (d : Fin 5120) (b : Fin 8) :
    total x d (4 * b.val + 3)
      = ((((Ideal.ofBits .f32 0x00000000#32 + ∑ r : Fin 1024, x (ix3 b (row 0 r) d)) + ∑ r : Fin 1024, x (ix3 b (row 1 r) d))
          + ∑ r : Fin 1024, x (ix3 b (row 2 r) d)) + ∑ r : Fin 1024, x (ix3 b (row 3 r) d))
        * Ideal.ofBits .f32 0x39800000#32 := by
  have e3 : total x d (4 * b.val + 3) = (total x d (4 * b.val + 2) + tileSum x d (4 * b.val + 3)) * Ideal.ofBits .f32 0x39800000#32 :=
    total_last x d (4 * b.val + 2) (by omega) (by omega)
  have e2 : total x d (4 * b.val + 2) = total x d (4 * b.val + 1) + tileSum x d (4 * b.val + 2) :=
    total_mid x d (4 * b.val + 1) (by omega) (by omega)
  have e1 : total x d (4 * b.val + 1) = total x d (4 * b.val) + tileSum x d (4 * b.val + 1) :=
    total_mid x d (4 * b.val) (by omega) (by omega)
  have e0 : total x d (4 * b.val) = Ideal.ofBits .f32 0x00000000#32 + tileSum x d (4 * b.val) :=
    total_first x d (4 * b.val) (by omega)
  have s0 : tileSum x d (4 * b.val) = ∑ r : Fin 1024, x (ix3 b (row 0 r) d) := tileSum_eq x d b 0
  have s1 : tileSum x d (4 * b.val + 1) = ∑ r : Fin 1024, x (ix3 b (row 1 r) d) := tileSum_eq x d b 1
  have s2 : tileSum x d (4 * b.val + 2) = ∑ r : Fin 1024, x (ix3 b (row 2 r) d) := tileSum_eq x d b 2
  have s3 : tileSum x d (4 * b.val + 3) = ∑ r : Fin 1024, x (ix3 b (row 3 r) d) := tileSum_eq x d b 3
  rw [e3, e2, e1, e0, s0, s1, s2, s3]

/-! ## The input window's block at a point -/

variable (m : (ℓ : Loc nD τ sig) → Buf (Elt Ideal) ℓ)

/-- The input window's index map, decided over the grid: block `(t / 4, t % 4, 0)` at point `t`. -/
theorem idx_in : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)

/-- Row `k`, lane `d` of the block point `t` reads is the input array at batch `t / 4`, row `1024 (t % 4) + k`, lane `d`. -/
theorem iblk_apply (c : Dev nD) (t : Fin cfg0.N) (v : Fin 1) (k : Fin 1024) (d : Fin 5120) :
    (iblk m c 0 t : Vec Ideal S1x1024x5120 .f32) (ix3 v k d)
      = V m c main_arg1 (ix3 (batchOf t.val) (row (tileOf t.val) k) d) := by
  have hN : t.val < 32 := lt_of_lt_of_eq t.isLt (show cfg0.N = 32 from N_0)
  obtain ⟨e0, e1, e2⟩ := idx_in t
  unfold iblk
  rw [View.read_apply]
  show V m c main_arg1 (((cfg0.win 0).blk t).view.emb (ix3 v k d)) = _
  refine congrArg (V m c main_arg1) (funext fun a => Fin.ext ?_)
  match a with
  | ⟨0, _⟩ => show win0_0.index t (0 : Fin 3) * 1 + 1 * v.val = t.val / 4 % 8; rw [e0]; omega
  | ⟨1, _⟩ => show win0_0.index t (1 : Fin 3) * 1024 + 1 * k.val = 1024 * (t.val % 4) + k.val; rw [e1]; omega
  | ⟨2, _⟩ => show win0_0.index t (2 : Fin 3) * 5120 + 1 * d.val = d.val; rw [e2]; omega

/-- So the row sum of point `t`'s block is the tile sum of the input array. -/
theorem blockSum_eq (c : Dev nD) (t : Fin cfg0.N) (v : Fin 1) (d : Fin 5120) (x : Vec Ideal S1x1024x5120 .f32)
    (hx : x = iblk m c 0 t) : ∑ k : Fin 1024, x (ix3 v k d) = tileSum (V m c main_arg1) d t.val := by
  subst hx
  exact Finset.sum_congr rfl fun k _ => iblk_apply m c t v k d

/-! ## The induction over the points -/

/-- What the frame run found in the output buffer after point `n` is the running total of the input array as the
    region finds it. -/
theorem outsAt_eq (c : Dev nD) : ∀ (n : ℕ) (h : n < cfg0.N) (u v : Fin 1) (d : Fin 5120),
    outsAt0 m c n h (ix3 u v d) = total (V m c main_arg1) d n
  | 0, h, u, v, d => by
    refine (congrFun (outsAt0_A m c ⟨0, h⟩ rfl (by show ¬0 % 4 = 3; omega)) (ix3 u v d)).trans ?_
    refine (congrFun (Pieces.out_A c (grid0.coords ⟨0, h⟩) (ms0_0 ⟨0, h⟩) (hs0_0 ⟨0, h⟩) (ms0_1 ⟨0, h⟩) (hs0_1 ⟨0, h⟩) _ _
      (iblk m c 0 ⟨0, h⟩)) (ix3 u v d)).trans ?_
    refine (sums_apply (k0_pay1 (F := Ideal)) (iblk m c 0 ⟨0, h⟩) u v d).trans ?_
    exact congrArg₂ (· + ·) (zeros_apply _) (blockSum_eq m c ⟨0, h⟩ v d (iblk m c 0 ⟨0, h⟩) rfl)
  | n + 1, h, u, v, d => by
    by_cases h0 : (n + 1) % 4 = 0
    · have h1 : ¬(n + 1) % 4 = 3 := by omega
      refine (congrFun (outsAt0_A m c ⟨n + 1, h⟩ h0 h1) (ix3 u v d)).trans ?_
      refine (congrFun (Pieces.out_A c (grid0.coords ⟨n + 1, h⟩) (ms0_0 ⟨n + 1, h⟩) (hs0_0 ⟨n + 1, h⟩) (ms0_1 ⟨n + 1, h⟩)
        (hs0_1 ⟨n + 1, h⟩) _ _ (iblk m c 0 ⟨n + 1, h⟩)) (ix3 u v d)).trans ?_
      refine (sums_apply (k0_pay1 (F := Ideal)) (iblk m c 0 ⟨n + 1, h⟩) u v d).trans ?_
      refine (congrArg₂ (· + ·) (zeros_apply _) (blockSum_eq m c ⟨n + 1, h⟩ v d (iblk m c 0 ⟨n + 1, h⟩) rfl)).trans ?_
      exact (total_first (V m c main_arg1) d (n + 1) h0).symm
    · by_cases h1 : (n + 1) % 4 = 3
      · refine (congrFun (outsAt0_C m c ⟨n + 1, h⟩ h0 h1) (ix3 u v d)).trans ?_
        refine (congrFun (Pieces.out_C c (grid0.coords ⟨n + 1, h⟩) (ms0_0 ⟨n + 1, h⟩) (hs0_0 ⟨n + 1, h⟩) (ms0_1 ⟨n + 1, h⟩)
          (hs0_1 ⟨n + 1, h⟩) _ _ (iblk m c 0 ⟨n + 1, h⟩) (outsAt0 m c n (Nat.lt_of_succ_lt h))) (ix3 u v d)).trans ?_
        refine (scale_apply _ _).trans ?_
        refine (congrArg (· * Ideal.ofBits .f32 0x39800000#32)
          (sums_apply (outsAt0 m c n (Nat.lt_of_succ_lt h)) (iblk m c 0 ⟨n + 1, h⟩) u v d)).trans ?_
        refine (congrArg (· * Ideal.ofBits .f32 0x39800000#32)
          (congrArg₂ (· + ·) (outsAt_eq c n (Nat.lt_of_succ_lt h) u v d) (blockSum_eq m c ⟨n + 1, h⟩ v d (iblk m c 0 ⟨n + 1, h⟩) rfl))).trans ?_
        exact (total_last (V m c main_arg1) d n h0 h1).symm
      · refine (congrFun (outsAt0_B m c ⟨n + 1, h⟩ h0 h1) (ix3 u v d)).trans ?_
        refine (congrFun (Pieces.out_B c (grid0.coords ⟨n + 1, h⟩) (ms0_0 ⟨n + 1, h⟩) (hs0_0 ⟨n + 1, h⟩) (ms0_1 ⟨n + 1, h⟩)
          (hs0_1 ⟨n + 1, h⟩) _ _ (iblk m c 0 ⟨n + 1, h⟩) (outsAt0 m c n (Nat.lt_of_succ_lt h))) (ix3 u v d)).trans ?_
        refine (sums_apply (outsAt0 m c n (Nat.lt_of_succ_lt h)) (iblk m c 0 ⟨n + 1, h⟩) u v d).trans ?_
        refine (congrArg₂ (· + ·) (outsAt_eq c n (Nat.lt_of_succ_lt h) u v d) (blockSum_eq m c ⟨n + 1, h⟩ v d (iblk m c 0 ⟨n + 1, h⟩) rfl)).trans ?_
        exact (total_mid (V m c main_arg1) d n h0 h1).symm

end Cert.KernelIdeal.Acc

end
-- ==== Proof.Final.lean ====
/-
  The kernel's result array after the run.

  The output window's block for point `t` is row `t / 4` of the `[8, 1, 5120]` result array, and it is written back
  only after the batch's last tile (`t % 4 = 3`). What is written back is the running total after that point, so row
  `b` of the result array ends holding, at lane `d`, the total after point `4 b + 3`; the eight write-backs cover the
  array.
-/
import proofs.«123669_j8169027797036_2_alg».proof.Proof.Acc

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.MeanPool Cert.KernelIdeal.Values Cert.KernelIdeal.Acc

/-- The result array as one function of the input array: at `(b, 0, d)` the total after the last tile of batch `b`. -/
def pooled (x : S8x4096x5120.Idx → EReal) : S8x1x5120.Idx → EReal :=
  fun i => total x (i 2) (4 * (i 0).val + 3)

theorem pooled_apply (x : S8x4096x5120.Idx → EReal) (b : Fin 8) (u : Fin 1) (d : Fin 5120) :
    pooled x (ix3 b u d) = total x d (4 * b.val + 3) := rfl

variable (m : (ℓ : Loc nD τ sig) → Buf (Elt Ideal) ℓ)

/-- The output window's index map, decided over the grid: block `(t / 4, 0, 0)` at point `t`. -/
theorem idx_out : ∀ t : Fin cfg0.N, win0_1.index t (0 : Fin 3) = t.val / 4 ∧ win0_1.index t (1 : Fin 3) = 0
    ∧ win0_1.index t (2 : Fin 3) = 0 :=
  (by decide +kernel : ∀ t : Fin grid0.N, _)

/-- At a last tile, what the buffer holds at a lane is the result function at the lane's place in the array. -/
theorem flushed_pt (c : Dev nD) (t : Fin cfg0.N) (h3 : t.val % 4 = 3) (y : S1x1x5120.Idx) :
    outsAt0 m c t.val t.isLt y = pooled (V m c main_arg1) (((cfg0.win 1).blk t).view.emb y) := by
  have hN : t.val < 32 := lt_of_lt_of_eq t.isLt (show cfg0.N = 32 from N_0)
  obtain ⟨e0, e1, e2⟩ := idx_out t
  obtain ⟨u, v, d, rfl⟩ : ∃ (u v : Fin 1) (d : Fin 5120), y = ix3 u v d := ⟨y 0, y 1, y 2, eq_ix3 y⟩
  refine (outsAt_eq m c t.val t.isLt u v d).trans ?_
  have he : ((cfg0.win 1).blk t).view.emb (ix3 u v d) = ix3 (batchOf t.val) (0 : Fin 1) d :=
    funext fun a => Fin.ext (by
      match a with
      | ⟨0, _⟩ => show win0_1.index t (0 : Fin 3) * 1 + 1 * u.val = t.val / 4 % 8; rw [e0]; omega
      | ⟨1, _⟩ => show win0_1.index t (1 : Fin 3) * 1 + 1 * v.val = 0; rw [e1]; omega
      | ⟨2, _⟩ => show win0_1.index t (2 : Fin 3) * 5120 + 1 * d.val = d.val; rw [e2]; omega)
  rw [he, pooled_apply]
  refine congrArg (total (V m c main_arg1) d) ?_
  show t.val = 4 * (t.val / 4 % 8) + 3
  omega

/-- WHAT A WRITE-BACK WRITES is its block of the result function. -/
theorem flushed_eq (c : Dev nD) (t : Fin cfg0.N) (hf : (cfg0.win 1).flush t = true) :
    (dats m 0 c).flushed 1 t = ((cfg0.win 1).blk t).view.read (Elt Ideal) (pooled (V m c main_arg1)) := by
  have h3 : t.val % 4 = 3 := (flush0_1 t).mp hf
  show (cfg0.win 1).cut (grid0.coords t) ((dats m 0 c).after 1 t) = _
  rw [after0_1]
  funext y
  exact flushed_pt m c t h3 y

/-- An index of the result array is in point `t`'s block iff each coordinate is in the block's range on its axis. -/
theorem mem_blk (t : Fin cfg0.N) (i : S8x1x5120.Idx) :
    i ∈ ((cfg0.win 1).blk t).view.set ↔ ∀ a : Fin 3, win0_1.index t a * S1x1x5120.size a ≤ (i a).val
      ∧ (i a).val < win0_1.index t a * S1x1x5120.size a + S1x1x5120.size a := by
  show i ∈ ((View.whole main_v11).slice (win0_1.rect t)).set ↔ _
  rw [View.set_slice_whole, Rect.mem_set_unit]
  exact Iff.rfl

/-- Row `b` of the result array is written back after point `4 b + 3`. -/
theorem cover (i : S8x1x5120.Idx) :
    ∃ t : Fin cfg0.N, (cfg0.win 1).flush t = true ∧ i ∈ ((cfg0.win 1).blk t).view.set := by
  have h0 : (i 0).val < 8 := (i 0).isLt
  have h1 : (i 1).val < 1 := (i 1).isLt
  have h2 : (i 2).val < 5120 := (i 2).isLt
  have hlt : 4 * (i 0).val + 3 < cfg0.N := by rw [show cfg0.N = 32 from N_0]; omega
  obtain ⟨e0, e1, e2⟩ := idx_out ⟨4 * (i 0).val + 3, hlt⟩
  refine ⟨⟨4 * (i 0).val + 3, hlt⟩, (flush0_1 _).mpr (by show (4 * (i 0).val + 3) % 4 = 3; omega), ?_⟩
  rw [mem_blk]
  intro a
  match a with
  | ⟨0, _⟩ =>
    show win0_1.index ⟨4 * (i 0).val + 3, hlt⟩ (0 : Fin 3) * 1 ≤ (i 0).val
      ∧ (i 0).val < win0_1.index ⟨4 * (i 0).val + 3, hlt⟩ (0 : Fin 3) * 1 + 1
    rw [e0]; show (4 * (i 0).val + 3) / 4 * 1 ≤ (i 0).val ∧ (i 0).val < (4 * (i 0).val + 3) / 4 * 1 + 1; omega
  | ⟨1, _⟩ =>
    show win0_1.index ⟨4 * (i 0).val + 3, hlt⟩ (1 : Fin 3) * 1 ≤ (i 1).val
      ∧ (i 1).val < win0_1.index ⟨4 * (i 0).val + 3, hlt⟩ (1 : Fin 3) * 1 + 1
    rw [e1]; omega
  | ⟨2, _⟩ =>
    show win0_1.index ⟨4 * (i 0).val + 3, hlt⟩ (2 : Fin 3) * 5120 ≤ (i 2).val
      ∧ (i 2).val < win0_1.index ⟨4 * (i 0).val + 3, hlt⟩ (2 : Fin 3) * 5120 + 5120
    rw [e2]; omega

/-- THE RESULT ARRAY after the run: the result function of the input array as launched. -/
theorem final (c : Dev nD) :
    (dats m 0 c).arrAt 1 cfg0.N = pooled (m ((c : Thread nD τ).loc main_arg1)) :=
  ((dats m 0 c).arrAt_eq_of_cover 1 (pooled (V m c main_arg1)) (flushed_eq m c) cover).trans
    (congrArg pooled (V_main_arg1 m c))

end Cert.KernelIdeal.Final

end
-- ==== Proof.Tail.lean ====
/-
  The host lines around the region, read as values.

  Before the region the program computes the min-max normalisation of `x` (its second result); after it, it drops the
  unit axis of the kernel's result array, computes the series branch (channel mean, projection, normalisation) from
  `x`, `W_proj` and `b_proj`, and adds the two. Each stretch is a pure function of the buffer contents it starts
  from, whatever they are; the lemmas below state it for arbitrary contents. The series branch and the normalisation
  are, operation for operation, the reference's own stages, and are named by them.
-/
import proofs.«123669_j8169027797036_2_alg».proof.Proof.Final
import proofs.«123669_j8169027797036_2_alg».proof.Proof.Gen.ReferenceIdeal.Read
import Idealize.ShloMosaic.Lib.StableHlo.Run

noncomputable section

namespace Cert.KernelIdeal.Tail

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Final

/-! ## The three stretches over any valuation -/

set_option maxHeartbeats 2000000 in
/-- The lines after the region leave in the first result's buffer: the result array without its unit axis, plus the
    series branch of the three small arguments. -/
theorem after_v25 (W : Valuation τ sig (Elt Ideal)) :
    StableHlo.after (List.flatten [hostOps1, hostOps1_1, hostOps1_2]) W (Proc.devRef .tc main_v25)
      = (addf (shapeCast S8x5120 (W (Proc.devRef .tc main_v11) : FVec Ideal S8x1x5120 .f32) shapeCasts_S8x1x5120_S8x5120)
          (Cert.ReferenceIdeal.Read.val_main_v25 (F := Ideal) (W (Proc.devRef .tc main_arg0)) (W (Proc.devRef .tc main_arg2))
            (W (Proc.devRef .tc main_arg3))) : FVec Ideal S8x5120 .f32) := by
  simp only [hostOps1, hostOps1_1, hostOps1_2, List.flatten_cons, List.flatten_nil, List.append_nil, List.cons_append,
    List.nil_append]
  after_results_simp <;> rfl

set_option maxHeartbeats 2000000 in
/-- The lines after the region do not write the second result's buffer. -/
theorem after_v10 (W : Valuation τ sig (Elt Ideal)) :
    StableHlo.after (List.flatten [hostOps1, hostOps1_1, hostOps1_2]) W (Proc.devRef .tc main_v10)
      = W (Proc.devRef .tc main_v10) := by
  simp only [hostOps1, hostOps1_1, hostOps1_2, List.flatten_cons, List.flatten_nil, List.append_nil, List.cons_append,
    List.nil_append]
  after_results_simp <;> rfl

set_option maxHeartbeats 2000000 in
/-- The lines before the region leave in the second result's buffer the min-max normalisation of `x`. -/
theorem before_v10 (M : Valuation τ sig (Elt Ideal)) :
    StableHlo.after (List.flatten [hostOps0, hostOps0_1]) M (Proc.devRef .tc main_v10)
      = Cert.ReferenceIdeal.Read.val_main_v10 (F := Ideal) (M (Proc.devRef .tc main_arg0)) := by
  simp only [hostOps0, hostOps0_1, List.flatten_cons, List.flatten_nil, List.append_nil, List.cons_append,
    List.nil_append]
  after_results_simp <;> rfl

end Cert.KernelIdeal.Tail

end
-- ==== Proof.Bridge.lean ====
/-
  The mean, both ways.

  The kernel's result array, viewed `[8, 5120]`, holds at `(b, d)` the four tile sums of column `(b, ·, d)` added in
  order onto zero and multiplied by `2⁻¹²`; the reference's mean holds there the sum of the whole column onto zero,
  divided by `4096`. The two are one extended real (`Cert.MeanPool.mean_eq`).
-/
import proofs.«123669_j8169027797036_2_alg».proof.Proof.Final
import proofs.«123669_j8169027797036_2_alg».proof.Proof.Gen.ReferenceIdeal.Read

noncomputable section

namespace Cert.Bridge

open Idealize.ShloMosaic Idealize.ShloMosaic.ValueIdx
open Cert.MeanPool Cert.KernelIdeal.Acc Cert.KernelIdeal.Final

/-- The reference sums column `(b, ·, d)` by its row number. -/
theorem idx_col (b : Fin 8) (d : Fin 5120) (k : Fin 4096) :
    Cert.ReferenceIdeal.Read.idx_main_v11 (ix2 b d) k = ix3 b k d :=
  funext fun a => Fin.ext (by match a with | ⟨0, _⟩ => rfl | ⟨1, _⟩ => rfl | ⟨2, _⟩ => rfl)

/-- The kernel's pooled array, with its unit axis dropped, is the reference's mean over the sequence axis. -/
theorem pooled_eq_mean (x : Cert.KernelIdeal.S8x4096x5120.Idx → EReal) :
    shapeCast Cert.KernelIdeal.S8x5120 (pooled x) Cert.KernelIdeal.Gen.shapeCasts_S8x1x5120_S8x5120
      = Cert.ReferenceIdeal.Read.val_main_v13 (F := Ideal) x := by
  funext i
  obtain ⟨b, d, rfl⟩ : ∃ (b : Fin 8) (d : Fin 5120), i = ix2 b d := ⟨i 0, i 1, eq_ix2 i⟩
  refine (shapeCast_apply (pooled x) _ (ix2 b d) (ix3 b (0 : Fin 1) d) ?_).trans ?_
  · rw [Shape.rowMajor_val_three, Shape.rowMajor_val_two]
    show (b.val * 1 + 0) * 5120 + d.val = b.val * 5120 + d.val
    omega
  rw [pooled_apply, total_batch, Cert.ReferenceIdeal.Read.val_main_v13_apply, Cert.ReferenceIdeal.Read.val_main_v11_apply,
    Cert.ReferenceIdeal.Read.val_main_v12_apply]
  simp only [Cert.ReferenceIdeal.Read.val_main_cst_1_apply, Cert.ReferenceIdeal.Read.val_main_cst_2_apply,
    Ideal.hostDivf_def, Ideal.ofBits_def, idx_col]
  exact mean_eq (fun s => x (ix3 b s d))

/-- THE FIRST RESULT, both ways: the kernel's pooled array without its unit axis, plus the series branch, is the
    reference's mean plus the same series branch. -/
theorem result_eq (x0 : (⟨Cert.ReferenceIdeal.S8x7x45, .f32⟩ : BufTy).Contents (Elt Ideal))
    (x1 : (⟨Cert.ReferenceIdeal.S8x4096x5120, .f32⟩ : BufTy).Contents (Elt Ideal))
    (x2 : (⟨Cert.ReferenceIdeal.S45x5120, .f32⟩ : BufTy).Contents (Elt Ideal))
    (x3 : (⟨Cert.ReferenceIdeal.S5120, .f32⟩ : BufTy).Contents (Elt Ideal)) :
    (addf (shapeCast Cert.KernelIdeal.S8x5120 (pooled x1) Cert.KernelIdeal.Gen.shapeCasts_S8x1x5120_S8x5120)
        (Cert.ReferenceIdeal.Read.val_main_v25 (F := Ideal) x0 x2 x3) : FVec Ideal Cert.KernelIdeal.S8x5120 .f32)
      = Cert.ReferenceIdeal.Read.val_main_v26 (F := Ideal) x0 x1 x2 x3 := by
  rw [pooled_eq_mean]
  rfl

end Cert.Bridge

end
-- ==== Proof.Result.lean ====
/-
  The idealized kernel's run, read: both results as functions of the arguments.

  The frame run leaves the pipeline's two arrays at what the accumulation says and every other buffer at what the host
  lines after the region compute from them. Read at the two result buffers this gives: the first result is the pooled
  array without its unit axis plus the series branch, which is the reference's first stage-by-stage value
  (`Cert.Bridge.result_eq`); the second is the normalisation of `x` computed before the region and never touched again.
-/
import proofs.«123669_j8169027797036_2_alg».proof.Proof.Tail
import proofs.«123669_j8169027797036_2_alg».proof.Proof.Bridge

noncomputable section

namespace Cert.KernelIdeal.Result

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.Final Cert.KernelIdeal.Tail

variable (m : (ℓ : Loc nD τ sig) → Buf (Elt Ideal) ℓ) (ρ : Dev nD → PrngReg)

/-- Core `c`'s buffers as the region leaves them: the pipeline's arrays at what the run computes, the rest as the
    region found them. -/
abbrev left (c : Dev nD) : Valuation τ sig (Elt Ideal) :=
  Pipeline.withArrays (cfgs 0).spec c (V0 m c) fun w => (dats m 0 c).arrAt w (cfgs 0).N

theorem afterTail_eq (c : Dev nD) (b : Ref sig .tc) :
    Pipeline.afterTail₀ cfgs (dats m) 0 (V0 m) [hostOps1, hostOps1_1, hostOps1_2] c b
      = StableHlo.after (List.flatten [hostOps1, hostOps1_1, hostOps1_2]) (left m c) (Proc.devRef .tc b) := rfl

/-- The region leaves the result array at the pooled function of the input array, -/
theorem left_v11 (c : Dev nD) : left m c (Proc.devRef .tc main_v11) = pooled (m ((c : Thread nD τ).loc main_arg1)) :=
  (Pipeline.withArrays_arr spec0 launch0.win.arr_inj c _ _ 1).trans (final m c)

/-- and the small arguments and the second result's buffer as it found them. -/
theorem left_arg0 (c : Dev nD) : left m c (Proc.devRef .tc main_arg0) = m ((c : Thread nD τ).loc main_arg0) :=
  (Pipeline.withArrays_of_ne _ c (V0 m c) _ main_arg0 (by exact (by decide : ∀ w, Pipeline.arrRef spec0 w ≠ main_arg0))).trans
    (V_main_arg0 m c)
theorem left_arg2 (c : Dev nD) : left m c (Proc.devRef .tc main_arg2) = m ((c : Thread nD τ).loc main_arg2) :=
  (Pipeline.withArrays_of_ne _ c (V0 m c) _ main_arg2 (by exact (by decide : ∀ w, Pipeline.arrRef spec0 w ≠ main_arg2))).trans
    (V_main_arg2 m c)
theorem left_arg3 (c : Dev nD) : left m c (Proc.devRef .tc main_arg3) = m ((c : Thread nD τ).loc main_arg3) :=
  (Pipeline.withArrays_of_ne _ c (V0 m c) _ main_arg3 (by exact (by decide : ∀ w, Pipeline.arrRef spec0 w ≠ main_arg3))).trans
    (V_main_arg3 m c)
theorem left_v10 (c : Dev nD) : left m c (Proc.devRef .tc main_v10) = V m c main_v10 :=
  Pipeline.withArrays_of_ne _ c (V0 m c) _ main_v10 (by exact (by decide : ∀ w, Pipeline.arrRef spec0 w ≠ main_v10))

/-- The first result after the run. -/
theorem tail_v25 (c : Dev nD) :
    Pipeline.afterTail₀ cfgs (dats m) 0 (V0 m) [hostOps1, hostOps1_1, hostOps1_2] c main_v25
      = Cert.ReferenceIdeal.Read.val_main_v26 (F := Ideal) (m ((c : Thread nD τ).loc main_arg0))
          (m ((c : Thread nD τ).loc main_arg1)) (m ((c : Thread nD τ).loc main_arg2)) (m ((c : Thread nD τ).loc main_arg3)) := by
  refine (afterTail_eq m c main_v25).trans ((after_v25 (left m c)).trans ?_)
  rw [left_v11, left_arg0, left_arg2, left_arg3]
  exact Cert.Bridge.result_eq _ _ _ _

/-- The second result after the run. -/
theorem tail_v10 (c : Dev nD) :
    Pipeline.afterTail₀ cfgs (dats m) 0 (V0 m) [hostOps1, hostOps1_1, hostOps1_2] c main_v10
      = Cert.ReferenceIdeal.Read.val_main_v10 (F := Ideal) (m ((c : Thread nD τ).loc main_arg0)) := by
  refine (afterTail_eq m c main_v10).trans ((after_v10 (left m c)).trans ((left_v10 m c).trans ?_))
  exact before_v10 (fun b => m (c, b))

/-- THE RUN: every weakly fair execution of the idealized kernel program terminates with its two results at the
    reference's stage-by-stage values of the arguments as launched, and the arguments unchanged. -/
theorem run : θ_run defs (onTc (τ := τ) (main (F := Ideal))) ⟨m, fun _ => 0, ρ⟩ fun r => ∀ c : Dev nD,
      r.2.mem ((c.tc : Thread nD τ).loc main_v25)
          = Cert.ReferenceIdeal.Read.val_main_v26 (F := Ideal) (m ((c.tc : Thread nD τ).loc main_arg0))
              (m ((c.tc : Thread nD τ).loc main_arg1)) (m ((c.tc : Thread nD τ).loc main_arg2)) (m ((c.tc : Thread nD τ).loc main_arg3))
      ∧ r.2.mem ((c.tc : Thread nD τ).loc main_v10)
          = Cert.ReferenceIdeal.Read.val_main_v10 (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v25 (Pipeline.mem_restRefs_of main_v25 (by decide) (by decide))).trans (tail_v25 m c),
      ((h c).2 main_v10 (Pipeline.mem_restRefs_of main_v10 (by decide) (by decide))).trans (tail_v10 m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.lean ====
/-
  The certificate's proof: a mean-pool kernel against `jnp.mean`.

  The kernel program sums `hidden_states` over the sequence axis with a Pallas kernel on a grid of 8 batches × 4 sequence
  tiles: the output block of a batch stays in place over its four tiles, is zeroed at the first, receives each tile's
  column sums, and is multiplied by `2⁻¹²` after the last. The reference sums the 4096 rows at once and divides by
  `4096`. Everything else — the min-max normalisation of `x`, the series branch, the final addition — is the same host
  computation in both programs.

  Over the extended reals the two means agree: addition is commutative and associative (also at the infinities), so
  four tile sums added in order are the whole sum, and division by the nonzero real `4096` is multiplication by its
  reciprocal `2⁻¹²` on every extended real (Proof/Spec.lean). No finiteness of the inputs is used. The road:
  Proof/Pieces.lean reads what each case of the body leaves in the output buffer; Proof/Values.lean and Proof/Acc.lean
  turn that into the running total at every grid point; Proof/Final.lean opens the result array after the run;
  Proof/Tail.lean and Proof/Result.lean read the host lines around the region; Proof/Bridge.lean joins the two means.
  The three frames are the generated frame runs (the reference's is its generated run with the results dropped), and
  the idealization rewrote nothing, so `preserves` is trivial.
-/
import proofs.«123669_j8169027797036_2_alg».proof.Defs
import proofs.«123669_j8169027797036_2_alg».proof.Proof.Gen.Kernel
import proofs.«123669_j8169027797036_2_alg».proof.Proof.Gen.Kernel.Skeleton
import proofs.«123669_j8169027797036_2_alg».proof.Proof.Gen.Kernel.Launch
import proofs.«123669_j8169027797036_2_alg».proof.Proof.Gen.Kernel.Points
import proofs.«123669_j8169027797036_2_alg».proof.Proof.Gen.Kernel.Frame
import proofs.«123669_j8169027797036_2_alg».proof.Proof.Gen.KernelIdeal
import proofs.«123669_j8169027797036_2_alg».proof.Proof.Gen.KernelIdeal.Skeleton
import proofs.«123669_j8169027797036_2_alg».proof.Proof.Gen.KernelIdeal.Launch
import proofs.«123669_j8169027797036_2_alg».proof.Proof.Gen.KernelIdeal.Points
import proofs.«123669_j8169027797036_2_alg».proof.Proof.Gen.KernelIdeal.Frame
import proofs.«123669_j8169027797036_2_alg».proof.Proof.Gen.ReferenceIdeal
import proofs.«123669_j8169027797036_2_alg».proof.Proof.Gen.ReferenceIdeal.Run
import proofs.«123669_j8169027797036_2_alg».proof.Proof.Gen.ReferenceIdeal.Read
import proofs.«123669_j8169027797036_2_alg».proof.Proof.Gen.Pre_finite_inputs
import proofs.«123669_j8169027797036_2_alg».proof.Proof.Result
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2)
    (Cert.ReferenceIdeal.Value.run (F := Ideal) m ρ)

theorem preserves : Cert.preserves_Kernel_KernelIdeal := trivial

/-- Both programs end with their results at the reference's stage-by-stage values of arguments that agree. -/
theorem algebraic : Cert.algebraic_KernelIdeal_ReferenceIdeal := by
  intro m ρ m' ρ' _ hagree
  refine ⟨fun c => Cert.ReferenceIdeal.Read.val_main_v26 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.ReferenceIdeal.Read.val_main_v10 (F := Ideal)
      (m ((c.tc : Thread Cert.KernelIdeal.nD Cert.KernelIdeal.τ).loc Cert.KernelIdeal.main_arg0)),
    Cert.KernelIdeal.Result.run m ρ, ?_⟩
  refine (θ_run Cert.ReferenceIdeal.defs _ _).mono (fun _ h c => ?_) (Cert.ReferenceIdeal.Value.run (F := Ideal) m' ρ')
  obtain ⟨h26, h10, ha0, ha1, ha2, ha3⟩ := h c
  refine ⟨?_, ?_, ha0, ha1, ha2, ha3⟩
  · rw [h26, Cert.ReferenceIdeal.Read.val_main_v26_eq, (hagree c).1, (hagree c).2.1, (hagree c).2.2.1, (hagree c).2.2.2]
  · rw [h10, Cert.ReferenceIdeal.Read.val_main_v10_eq, (hagree c).1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
